-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x64 : Shape := ⟨2, ![256, 64]⟩
abbrev S64 : Shape := ⟨1, ![64]⟩
abbrev S1250000 : Shape := ⟨1, ![1250000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S1250000 : S_.BroadcastsInDim S1250000 (![] : Fin 0 → Fin S1250000.rank)
  reducesTo_S1250000_S_d0 : S1250000.ReducesTo [0] S_

variable [Facts]

def fn_part1 {F : FTy → Type} [FloatOps F] (main_v13 : IVec S_ 1) (main_v16 : IVec S1250000 1) : IVec S_ 1 :=
  let main_c_5 : IVec S_ 1 := constantI S_ 1 1#1
  let main_v17 : IVec S_ 1 := (fun x v => Host.reduce IntOp.andi x v reducesTo_S1250000_S_d0 h_S_) main_v16 main_c_5
  let main_v18 : IVec S_ 1 := andi main_v13 main_v17
  main_v18

def fn {F : FTy → Type} [FloatOps F] (main_arg0 : FVec F S100000x256 .f32) (main_arg1 : FVec F S256x64 .f32) (main_arg2 : FVec F S64 .f32) (main_arg3 : FVec F S1250000 .f32) (main_arg4 : IVec S1250000 32) (main_arg5 : IVec S1250000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1250000 .f32 := Host.absf main_arg3
  let main_cst_4 : FVec F S_ .f32 := constant S_ .f32 0x7F800000#32
  let main_v15 : FVec F S1250000 .f32 := broadcastInDim S1250000 ![] bcast_S_S1250000 main_cst_4
  let main_v16 : IVec S1250000 1 := cmpf .olt main_v14 main_v15
  fn_part1 (F := F) main_v13 main_v16
-- ==== Kernel.lean ====
abbrev S100000x256 : Shape := ⟨2, ![100000, 256]⟩
abbrev S256x64 : Shape := ⟨2, ![256, 64]⟩
abbrev S64 : Shape := ⟨1, ![64]⟩
abbrev S1250000 : Shape := ⟨1, ![1250000]⟩
abbrev S100000x64 : Shape := ⟨2, ![100000, 64]⟩
abbrev S10000x256 : Shape := ⟨2, ![10000, 256]⟩
abbrev S10000x64 : Shape := ⟨2, ![10000, 64]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 27
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S1250000, .f32⟩
  | .hbm, ⟨4, _⟩ => ⟨S1250000, .i32⟩
  | .hbm, ⟨5, _⟩ => ⟨S1250000, .i32⟩
  | .hbm, ⟨6, _⟩ => ⟨S100000x64, .bf16⟩
  | .hbm, ⟨7, _⟩ => ⟨S_, .i32⟩
  | .hbm, ⟨8, _⟩ => ⟨S1250000, .i32⟩
  | .hbm, ⟨9, _⟩ => ⟨S1250000, .i1⟩
  | .hbm, ⟨10, _⟩ => ⟨S_, .i32⟩
  | .hbm, ⟨11, _⟩ => ⟨S1250000, .i32⟩
  | .hbm, ⟨12, _⟩ => ⟨S1250000, .i32⟩
  | .hbm, ⟨13, _⟩ => ⟨S1250000, .i32⟩
  | .hbm, ⟨14, _⟩ => ⟨S1250000x1, .i32⟩
  | .hbm, ⟨15, _⟩ => ⟨S1250000x64, .bf16⟩
  | .hbm, ⟨16, _⟩ => ⟨S1250000x64, .f32⟩
  | .hbm, ⟨17, _⟩ => ⟨S1250000x1, .f32⟩
  | .hbm, ⟨18, _⟩ => ⟨S1250000x64, .f32⟩
  | .hbm, ⟨19, _⟩ => ⟨S1250000x64, .f32⟩
  | .hbm, ⟨20, _⟩ => ⟨S_, .f32⟩
  | .hbm, ⟨21, _⟩ => ⟨S100000x64, .f32⟩
  | .hbm, ⟨22, _⟩ => ⟨S1250000x1, .i32⟩
  | .hbm, ⟨23, _⟩ => ⟨S100000x64, .f32⟩
  | .hbm, ⟨24, _⟩ => ⟨S1x64, .f32⟩
  | .hbm, ⟨25, _⟩ => ⟨S100000x64, .f32⟩
  | .hbm, ⟨26, _⟩ => ⟨S100000x64, .f32⟩
  | .local _ .vmem, ⟨0, _⟩ => ⟨S10000x256, .f32⟩
  | .local _ .vmem, ⟨1, _⟩ => ⟨S10000x256, .f32⟩
  | .local _ .vmem, ⟨2, _⟩ => ⟨S256x64, .f32⟩
  | .local _ .vmem, ⟨3, _⟩ => ⟨S10000x64, .bf16⟩
  | .local _ .vmem, ⟨4, _⟩ => ⟨S10000x64, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S10000x64_S10000x64_0_0 : ∀ a, (![0, 0] : Fin 2 → Nat) a + S10000x64.size a ≤ S10000x64.size a
  h_S10000x64 : 0 < S10000x64.numel
  packedbf16_S10000x64_S10000x64_0_0 : (Rect.unit (s := S10000x64) ![0, 0] S10000x64.size inb_S10000x64_S10000x64_0_0).PackedRows (EltTy.packing .bf16)
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S10000x256_S256x64_S10000x64_1_0_0_1_n_n_wf : DotDims.WF S10000x256 S256x64 S10000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .bf16 = 32 ∨ (Rect.block (s := S100000x64) S10000x64.size (cc0_transform_2 i) (hinb0_2 i)).WholeWords (EltTy.packing .bf16)

variable [Facts₀]

def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x64 : Shape := ⟨2, ![256, 64]⟩
abbrev S64 : Shape := ⟨1, ![64]⟩
abbrev S1250000 : Shape := ⟨1, ![1250000]⟩
abbrev S100000x64 : Shape := ⟨2, ![100000, 64]⟩
abbrev S_ : Shape := ⟨0, ![]⟩
abbrev S1250000x1 : Shape := ⟨2, ![1250000, 1]⟩
abbrev S1250000x64 : Shape := ⟨2, ![1250000, 64]⟩
abbrev S1x64 : Shape := ⟨2, ![1, 64]⟩

abbrev nBuf : Space → Nat
  | .hbm => 26
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x64, .f32⟩
  | .hbm, ⟨2, _⟩ => ⟨S64, .f32⟩
  | .hbm, ⟨3, _⟩ => ⟨S1250000, .f32⟩
  | .hbm, ⟨4, _⟩ => ⟨S1250000, .i32⟩
  | .hbm, ⟨5, _⟩ => ⟨S1250000, .i32⟩
  | .hbm, ⟨6, _⟩ => ⟨S100000x64, .f32⟩
  | .hbm, ⟨7, _⟩ => ⟨S_, .i32⟩
  | .hbm, ⟨8, _⟩ => ⟨S1250000, .i32⟩
  | .hbm, ⟨9, _⟩ => ⟨S1250000, .i1⟩
  | .hbm, ⟨10, _⟩ => ⟨S_, .i32⟩
  | .hbm, ⟨11, _⟩ => ⟨S1250000, .i32⟩
  | .hbm, ⟨12, _⟩ => ⟨S1250000, .i32⟩
  | .hbm, ⟨13, _⟩ => ⟨S1250000, .i32⟩
  | .hbm, ⟨14, _⟩ => ⟨S1250000x1, .i32⟩
  | .hbm, ⟨15, _⟩ => ⟨S1250000x64, .f32⟩
  | .hbm, ⟨16, _⟩ => ⟨S1250000x1, .f32⟩
  | .hbm, ⟨17, _⟩ => ⟨S1250000x64, .f32⟩
  | .hbm, ⟨18, _⟩ => ⟨S1250000x64, .f32⟩
  | .hbm, ⟨19, _⟩ => ⟨S_, .f32⟩
  | .hbm, ⟨20, _⟩ => ⟨S100000x64, .f32⟩
  | .hbm, ⟨21, _⟩ => ⟨S1250000x1, .i32⟩
  | .hbm, ⟨22, _⟩ => ⟨S100000x64, .f32⟩
  | .hbm, ⟨23, _⟩ => ⟨S1x64, .f32⟩
  | .hbm, ⟨24, _⟩ => ⟨S100000x64, .f32⟩
  | .hbm, ⟨25, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x64_S100000x64_1_0_0_1_n_n_wf : DotDims.WF S100000x256 S256x64 S100000x64 [1] [0] [0] [1] [] []
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1

variable [Facts₀]

def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf

class Facts : Prop extends Facts₀ where

variable [Facts]
-- ==== Proof.KernelBlock.lean ====
/-
  What one grid point of the kernel stores, read at an entry. The body rounds its 10000 × 256 block of x and
  the whole of w to bf16, multiplies them on the matrix unit into a zero accumulator, and rounds the product
  to bf16. At the ideal values every change of format is the identity and the accumulator is 0, so entry
  (p, q) of the stored block is the sum over the 256 features k of block[p, k] · w[k, q].
-/
import proofs.«164963_j88124138979527_2_alg».proof.Proof.Gen.KernelIdeal.Skeleton
import Idealize.ShloMosaic.PureOps.Ideal.Laws
import Idealize.ShloMosaic.Lib.ValueIdx

noncomputable section

namespace Cert.GraphConv

open Cert.KernelIdeal Cert.KernelIdeal.Gen Idealize.ShloMosaic Idealize.ShloMosaic.ValueIdx

/-- The matrix unit's dimension numbers: the block's axis 1 against w's axis 0. -/
abbrev blockDot : DotDims S10000x256 S256x64 S10000x64 := dot_S10000x256_S256x64_S10000x64_1_0_0_1_n_n

/-- The left operand's row is the output's row … -/
theorem lhs_row (i : S10000x64.Idx) (q : blockDot.contr.Idx) : (blockDot.lhsIdx i q 0).val = (i 0).val := by
  unfold DotDims.lhsIdx
  rw [dif_neg (show ¬(0 : Fin S10000x256.rank) ∈ blockDot.lhsBatch by decide),
    dif_pos (show (0 : Fin S10000x256.rank) ∈ blockDot.lhsNonContracting by decide)]
  rfl
/-- … and its column the contracted feature; -/
theorem lhs_col (i : S10000x64.Idx) (q : blockDot.contr.Idx) : (blockDot.lhsIdx i q 1).val = (q ⟨0, by decide⟩).val :=
  blockDot.lhsIdx_val_of_single rfl i q
/-- the right operand's row is the contracted feature … -/
theorem rhs_row (i : S10000x64.Idx) (q : blockDot.contr.Idx) : (blockDot.rhsIdx i q 0).val = (q ⟨0, by decide⟩).val :=
  blockDot.rhsIdx_val_of_single rfl i q
/-- … and its column the output's column. -/
theorem rhs_col (i : S10000x64.Idx) (q : blockDot.contr.Idx) : (blockDot.rhsIdx i q 1).val = (i 1).val := by
  unfold DotDims.rhsIdx
  rw [dif_neg (show ¬(1 : Fin S256x64.rank) ∈ blockDot.rhsBatch by decide),
    dif_pos (show (1 : Fin S256x64.rank) ∈ blockDot.rhsNonContracting by decide)]
  rfl

/-- The body's stored value at (p, q): the block's row p against w's column q. -/
theorem block_apply (xb : FVec Ideal S10000x256 .f32) (wb : FVec Ideal S256x64 .f32) (p : Fin 10000) (q : Fin 64) :
    k0_pay1 (F := Ideal) xb wb (ix2 p q) = ∑ k : Fin 256, xb (ix2 p k) * wb (ix2 k q) := by
  unfold k0_pay1
  show FloatOps.matmul (F := Ideal) blockDot none
      (truncf (F := Ideal) .bf16 xb bitsLt_bf16_f32) (truncf (F := Ideal) .bf16 wb bitsLt_bf16_f32)
      (constant (F := Ideal) S10000x64 .f32 0x00000000#32) (ix2 p q) = _
  rw [Ideal.matmul_constant_zero_apply, ← Equiv.sum_comp (contrEquiv1 blockDot 256 rfl rfl).symm]
  refine Finset.sum_congr rfl fun k _ => ?_
  have hk := contrEquiv1_symm_val blockDot 256 rfl rfl k
  have el : blockDot.lhsIdx (ix2 p q) ((contrEquiv1 blockDot 256 rfl rfl).symm k) = ix2 p k :=
    funext fun a => Fin.ext (by
      match a with
      | ⟨0, _⟩ => exact lhs_row _ _
      | ⟨1, _⟩ => exact (lhs_col _ _).trans hk)
  have er : blockDot.rhsIdx (ix2 p q) ((contrEquiv1 blockDot 256 rfl rfl).symm k) = ix2 k q :=
    funext fun a => Fin.ext (by
      match a with
      | ⟨0, _⟩ => exact (rhs_row _ _).trans hk
      | ⟨1, _⟩ => exact rhs_col _ _)
  rw [el, er]
  rfl

end Cert.GraphConv

end
-- ==== Proof.Dense.lean ====
/-
  The dense feature transform that both programs compute first: for node features x : [100000, 256] and
  weights w : [256, 64], entry (r, c) of x·w is the sum over the 256 input features k of x[r, k] · w[k, c],
  on the extended reals. Sums and products of extended reals are commutative and associative whatever
  their arguments, so nothing here asks the entries to be finite.
-/
import Idealize.ShloMosaic.PureOps.Ideal
import Idealize.ShloMosaic.Lib.ValueIdx

noncomputable section

namespace Cert.GraphConv

open Idealize.ShloMosaic Idealize.ShloMosaic.ValueIdx

/-- The matrix product x·w, entry by entry. -/
def dense (x : (⟨2, ![100000, 256]⟩ : Shape).Idx → EReal) (w : (⟨2, ![256, 64]⟩ : Shape).Idx → EReal) :
    (⟨2, ![100000, 64]⟩ : Shape).Idx → EReal :=
  fun i => ∑ k : Fin 256, x (ix2 (n0 := 100000) (n1 := 256) (i 0) k) * w (ix2 (n0 := 256) (n1 := 64) k (i 1))

/-- The product read at row r, column c. -/
theorem dense_apply (x : (⟨2, ![100000, 256]⟩ : Shape).Idx → EReal) (w : (⟨2, ![256, 64]⟩ : Shape).Idx → EReal)
    (r : Fin 100000) (c : Fin 64) :
    dense x w (ix2 r c) = ∑ k : Fin 256, x (ix2 r k) * w (ix2 k c) := rfl

end Cert.GraphConv

end
-- ==== Proof.KernelDense.lean ====
/-
  The array the kernel's region leaves: the ten grid points each write one block of 10000 rows of the
  100000 × 64 result, point t rows 10000·t … 10000·t + 9999, from rows 10000·t … of x and the whole of w.
  Entry (p, q) of point t's block is the sum over the features k of x[10000·t + p, k] · w[k, q], which is
  entry (10000·t + p, q) of the matrix product x·w; the ten blocks tile the rows, row r lying in block
  r / 10000, so after the region the array is x·w.
-/
import proofs.«164963_j88124138979527_2_alg».proof.Proof.Gen.KernelIdeal.Frame
import proofs.«164963_j88124138979527_2_alg».proof.Proof.KernelBlock
import proofs.«164963_j88124138979527_2_alg».proof.Proof.Dense
import Idealize.ShloMosaic.Lib.Pipeline.Value

noncomputable section

namespace Cert.GraphConv

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The three index maps over the grid: point t reads block row t of x, the one block of w, and writes block
    row t of the result. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's block of x at (p, k) is x at row 10000·t + p, column k. -/
theorem xblock_apply (c : Dev nD) (t : Fin cfg0.N) (y : S10000x256.Idx) (i : S100000x256.Idx)
    (h0 : (i 0).val = t.val * 10000 + (y 0).val) (h1 : (i 1).val = (y 1).val) :
    (iblk m c 0 t : Vec Ideal S10000x256 .f32) y = (m ((c : Thread nD τ).loc main_arg0) : S100000x256.Idx → Elt Ideal .f32) i := by
  obtain ⟨e0, e1, -⟩ := block_indices t
  unfold iblk
  rw [View.read_apply]
  show V m c main_arg0 _ = m (c.tc.loc main_arg0) _
  rw [V_main_arg0]
  have e : ((cfg0.win 0).blk t).view.emb y = i := by
    funext a; apply Fin.ext
    match a with
    | ⟨0, _⟩ => show win0_0.index t (0 : Fin 2) * 10000 + 1 * (y 0).val = (i 0).val; rw [e0, h0]; omega
    | ⟨1, _⟩ => show win0_0.index t (1 : Fin 2) * 256 + 1 * (y 1).val = (i 1).val; rw [e1, h1]; omega
  rw [e]

/-- Every point's block of w is w. -/
theorem wblock_apply (c : Dev nD) (t : Fin cfg0.N) (y i : S256x64.Idx)
    (h0 : (i 0).val = (y 0).val) (h1 : (i 1).val = (y 1).val) :
    (iblk m c 1 t : Vec Ideal S256x64 .f32) y = (m ((c : Thread nD τ).loc main_arg1) : S256x64.Idx → Elt Ideal .f32) i := by
  obtain ⟨-, -, e2, e3, -⟩ := block_indices t
  unfold iblk
  rw [View.read_apply]
  show V m c main_arg1 _ = m (c.tc.loc main_arg1) _
  rw [V_main_arg1]
  have e : ((cfg0.win 1).blk t).view.emb y = i := by
    funext a; apply Fin.ext
    match a with
    | ⟨0, _⟩ => show win0_1.index t (0 : Fin 2) * 256 + 1 * (y 0).val = (i 0).val; rw [e2, h0]; omega
    | ⟨1, _⟩ => show win0_1.index t (1 : Fin 2) * 64 + 1 * (y 1).val = (i 1).val; rw [e3, h1]; omega
  rw [e]

/-- Entry (p, q) of point t's block of the result sits at row 10000·t + p, column q of the array. -/
theorem out_entry (t : Fin cfg0.N) (p : Fin 10000) (q : Fin 64) :
    ((((cfg0.win 2).blk t).view.emb (ix2 p q)) (0 : Fin 2)).val = t.val * 10000 + p.val
      ∧ ((((cfg0.win 2).blk t).view.emb (ix2 p q)) (1 : Fin 2)).val = q.val := by
  obtain ⟨-, -, -, -, e4, e5⟩ := block_indices t
  constructor
  · show win0_2.index t (0 : Fin 2) * 10000 + 1 * p.val = _; rw [e4]; omega
  · show win0_2.index t (1 : Fin 2) * 64 + 1 * q.val = _; rw [e5]; omega

/-- What point t writes back is block t of x·w. -/
theorem flushed_eq (c : Dev nD) (t : Fin cfg0.N) :
    (dats m 0 c).flushed 2 t = ((cfg0.win 2).blk t).view.read (Elt Ideal)
      (dense (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zero_offsets]
  simp only [View.ld_unit_zero (S := S10000x256) zero_offsets, View.ld_unit_zero (S := S256x64) zero_offsets]
  funext j
  obtain ⟨p, q, rfl⟩ : ∃ (p : Fin 10000) (q : Fin 64), j = ix2 p q := ⟨j 0, j 1, eq_ix2 j⟩
  show k0_pay1 (iblk m c 0 t) (iblk m c 1 t) (ix2 p q)
    = dense (m ((c : Thread nD τ).loc main_arg0)) (m ((c : Thread nD τ).loc main_arg1)) (((cfg0.win 2).blk t).view.emb (ix2 p q))
  refine (block_apply (iblk m c 0 t) (iblk m c 1 t) p q).trans ?_
  obtain ⟨r0, r1⟩ := out_entry t p q
  unfold dense
  refine Finset.sum_congr rfl fun k _ => ?_
  rw [xblock_apply m c t (ix2 p k) (ix2 ((((cfg0.win 2).blk t).view.emb (ix2 p q)) 0) k) r0 rfl,
    wblock_apply m c t (ix2 k q) (ix2 k ((((cfg0.win 2).blk t).view.emb (ix2 p q)) 1)) rfl r1]

/-- An index of the array is in point t's block iff each coordinate is in the block's range on its axis. -/
theorem mem_block (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Row r lies in the block of point r / 10000: the ten blocks cover the array. -/
theorem blocks_cover (i : S100000x64.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 64 := (i 1).isLt
  obtain ⟨t, ht⟩ : ∃ t : Fin cfg0.N, t.val = (i 0).val / 10000 := ⟨⟨(i 0).val / 10000, by rw [hN]; omega⟩, rfl⟩
  obtain ⟨-, -, -, -, e4, e5⟩ := block_indices t
  refine ⟨t, flush0_2 t, ?_⟩
  rw [mem_block]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- After the region the result's array is x·w. -/
theorem region_result (c : Dev nD) :
    (dats m 0 c).arrAt 2 cfg0.N = dense (m ((c : Thread nD τ).loc main_arg0)) (m ((c : Thread nD τ).loc main_arg1)) :=
  (dats m 0 c).arrAt_eq_of_cover 2 _ (fun t _ => flushed_eq m c t) blocks_cover

end Cert.GraphConv

end
-- ==== Proof.Tail.lean ====
/-
  What both programs do with the dense product mat = x·w, as one function of it: every edge e reads row
  src[e] of mat (a negative src[e] first moved up by the 100000 nodes; an index still outside the rows is
  read as the host's gather reads it), scales the row by the edge's weight, and adds it into row dst[e] of a zero
  100000 × 64 array (an edge whose dst[e] is no row is dropped); the bias is then added to every row.
  The kernel's program gathers from a bf16 array and widens the gathered rows to f32 before scaling: on
  the ideal values a widening is the identity, so this is also the reference's chain, which gathers from f32.
-/
import proofs.«164963_j88124138979527_2_alg».proof.Proof.Gen.KernelIdeal
import Idealize.ShloMosaic.PureOps.Ideal

noncomputable section

namespace Cert.GraphConv

open Cert.KernelIdeal Cert.KernelIdeal.Facts₀ Idealize.ShloMosaic

/-- The sparse aggregation and the bias, applied to the dense product. -/
def aggregate (mat : (⟨S100000x64, .bf16⟩ : BufTy).Contents (Elt Ideal)) (bias : (⟨S64, .f32⟩ : BufTy).Contents (Elt Ideal))
    (ew : (⟨S1250000, .f32⟩ : BufTy).Contents (Elt Ideal)) (src dst : (⟨S1250000, .i32⟩ : BufTy).Contents (Elt Ideal)) :
    (⟨S100000x64, .f32⟩ : BufTy).Contents (Elt Ideal) :=
  addf (F := Ideal)
    (Host.scatterAdd (F := Ideal) scatter_S100000x64_S1250000x1_S1250000x64_1_0_0_1
      (broadcastInDim S100000x64 ![] bcast_S_S100000x64 (constant (F := Ideal) S_ .f32 0x00000000#32))
      (broadcastInDim S1250000x1 ![0] bcast_S1250000_S1250000x1_0 dst)
      (mulf (F := Ideal)
        (extf (F := Ideal) .f32
          (Host.gather gather_S100000x64_S1250000x1_S1250000x64_1_0_n_n_0_1_164 mat
            (broadcastInDim S1250000x1 ![0] bcast_S1250000_S1250000x1_0
              (select (cmpi .slt src (broadcastInDim S1250000 ![] bcast_S_S1250000 (constantI S_ 32 0#32)))
                (addi src (broadcastInDim S1250000 ![] bcast_S_S1250000 (constantI S_ 32 100000#32)))
                src)))
          bitsLt_bf16_f32)
        (broadcastInDim S1250000x64 ![0, 1] bcast_S1250000x1_S1250000x64_0_1
          (broadcastInDim S1250000x1 ![0] bcast_S1250000_S1250000x1_0 ew))))
    (broadcastInDim S100000x64 ![0, 1] bcast_S1x64_S100000x64_0_1 (broadcastInDim S1x64 ![1] bcast_S64_S1x64_1 bias))

end Cert.GraphConv

end
-- ==== Proof.KernelTail.lean ====
/-
  The kernel program's result: after the region its first array holds x·w, the arguments are as launched,
  and the twenty host operations after the region compute, from those, the aggregation of the product with
  the bias added.
-/
import proofs.«164963_j88124138979527_2_alg».proof.Proof.Gen.KernelIdeal.Frame
import proofs.«164963_j88124138979527_2_alg».proof.Proof.KernelDense
import proofs.«164963_j88124138979527_2_alg».proof.Proof.Tail
import Idealize.ShloMosaic.Lib.StableHlo.Run

noncomputable section

namespace Cert.GraphConv

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- What the operations after the region find: the region's array at x·w, -/
theorem found_mat (c : Dev nD) :
    Pipeline.withArrays (cfgs 0).spec c (V0 m c) (fun w => (dats m 0 c).arrAt w (cfgs 0).N) (Proc.devRef .tc main_v0)
      = dense (m ((c : Thread nD τ).loc main_arg0)) (m ((c : Thread nD τ).loc main_arg1)) :=
  (Pipeline.withArrays_arr spec0 launch0.win.arr_inj c _ _ 2).trans (region_result m c)

/-- and the bias, the edge weights and the two index arrays as launched (no window stages them). -/
theorem found_bias (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans (V_main_arg2 m c)
theorem found_weights (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans (V_main_arg3 m c)
theorem found_src (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne _ c (V0 m c) _ main_arg4 (by exact (by decide : ∀ w, Pipeline.arrRef spec0 w ≠ main_arg4))).trans (V_main_arg4 m c)
theorem found_dst (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by exact (by decide : ∀ w, Pipeline.arrRef spec0 w ≠ main_arg5))).trans (V_main_arg5 m c)

set_option maxHeartbeats 2000000 in
/-- The result buffer after the operations that follow the region. -/
theorem kernel_result (c : Dev nD) :
    Pipeline.afterTail₀ cfgs (dats m) 0 (V0 m) [hostOps1] c main_v17
      = aggregate (dense (m ((c : Thread nD τ).loc main_arg0)) (m ((c : Thread nD τ).loc main_arg1)))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v17) = _
  after_results_simp
  rw [found_mat, found_bias, found_weights, found_src, found_dst]
  rfl

end Cert.GraphConv

end
-- ==== Proof.KernelRun.lean ====
/-
  The kernel program's run, read: every weakly fair execution ends with the result buffer at the
  aggregation of x·w with the bias added, and with the six argument arrays as launched. The run is the
  generated frame run; its post names the result buffer as what the operations after the region compute,
  and that is the aggregation.
-/
import proofs.«164963_j88124138979527_2_alg».proof.Proof.KernelTail

noncomputable section

namespace Cert.GraphConv

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The idealized kernel's run with its result named. -/
theorem kernel_run : θ_run (defs (F := Ideal)) (onTc (τ := τ) (main (F := Ideal))) ⟨m, fun _ => 0, ρ⟩ (fun r => ∀ c : Dev nD,
      r.2.mem ((c.tc : Thread nD τ).loc main_v17)
        = aggregate (dense (m ((c.tc : Thread nD τ).loc main_arg0)) (m ((c.tc : Thread nD τ).loc main_arg1)))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v17 (Pipeline.mem_restRefs_of main_v17 (by decide) (by decide))).trans (kernel_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.GraphConv

end
-- ==== Proof.RefDense.lean ====
/-
  The reference's first operation, the host's dot_general of x and w contracting the 256 input features, is the
  matrix product x·w entry by entry: at the ideal values a dot_general is the plain sum of products over the
  contracted axis, and its two operand indices at output (r, c) and feature k are (r, k) and (k, c).
-/
import proofs.«164963_j88124138979527_2_alg».proof.Proof.Gen.ReferenceIdeal.Read
import proofs.«164963_j88124138979527_2_alg».proof.Proof.Dense

noncomputable section

namespace Cert.GraphConv

open Cert.ReferenceIdeal Idealize.ShloMosaic Idealize.ShloMosaic.ValueIdx

/-- The reference's dense stage is x·w. -/
theorem ref_dense (x : (⟨S100000x256, .f32⟩ : BufTy).Contents (Elt Ideal)) (w : (⟨S256x64, .f32⟩ : BufTy).Contents (Elt Ideal)) :
    Read.val_main_v0 (F := Ideal) x w = dense x w := by
  funext i
  rw [Read.val_main_v0_apply]
  refine Finset.sum_congr rfl fun k _ => ?_
  have el : Read.lidx_main_v0 i k = ix2 (n0 := 100000) (n1 := 256) (i 0) k :=
    funext fun a => Fin.ext (by match a with | ⟨0, _⟩ => rfl | ⟨1, _⟩ => rfl)
  have er : Read.ridx_main_v0 i k = ix2 (n0 := 256) (n1 := 64) k (i 1) :=
    funext fun a => Fin.ext (by match a with | ⟨0, _⟩ => rfl | ⟨1, _⟩ => rfl)
  rw [el, er]

end Cert.GraphConv

end
-- ==== Proof.RefTail.lean ====
/-
  The reference program's result: its run ends with the result buffer at the composed term of its twenty
  operations; the first of them is the dense product x·w and the other nineteen are the aggregation of
  that product with the bias added, the same chain the kernel's program applies after its region.
-/
import proofs.«164963_j88124138979527_2_alg».proof.Proof.Gen.ReferenceIdeal.Read
import proofs.«164963_j88124138979527_2_alg».proof.Proof.RefDense
import proofs.«164963_j88124138979527_2_alg».proof.Proof.Tail

noncomputable section

namespace Cert.GraphConv

open Cert.ReferenceIdeal Cert.ReferenceIdeal.Facts₀ Idealize.ShloMosaic

/-- The reference's operations after its dense product are the aggregation: the two programs name the
    same shapes and the same dimension numbers, and a gather reads its operand's entries whatever their format. -/
theorem ref_chain (mat : (⟨S100000x64, .f32⟩ : BufTy).Contents (Elt Ideal)) (x2 : (⟨S64, .f32⟩ : BufTy).Contents (Elt Ideal))
    (x3 : (⟨S1250000, .f32⟩ : BufTy).Contents (Elt Ideal)) (x4 x5 : (⟨S1250000, .i32⟩ : BufTy).Contents (Elt Ideal)) :
    addf (F := Ideal) (Host.scatterAdd (F := Ideal) scatter_S100000x64_S1250000x1_S1250000x64_1_0_0_1 (broadcastInDim S100000x64 ![] bcast_S_S100000x64 (constant (F := Ideal) S_ .f32 0x00000000#32)) (broadcastInDim S1250000x1 ![0] bcast_S1250000_S1250000x1_0 (x5)) (mulf (F := Ideal) (Host.gather gather_S100000x64_S1250000x1_S1250000x64_1_0_n_n_0_1_164 mat (broadcastInDim S1250000x1 ![0] bcast_S1250000_S1250000x1_0 (select (cmpi .slt (x4) (broadcastInDim S1250000 ![] bcast_S_S1250000 (constantI S_ 32 0#32))) (addi (x4) (broadcastInDim S1250000 ![] bcast_S_S1250000 (constantI S_ 32 100000#32))) (x4)))) (broadcastInDim S1250000x64 ![0, 1] bcast_S1250000x1_S1250000x64_0_1 (broadcastInDim S1250000x1 ![0] bcast_S1250000_S1250000x1_0 (x3))))) (broadcastInDim S100000x64 ![0, 1] bcast_S1x64_S100000x64_0_1 (broadcastInDim S1x64 ![1] bcast_S64_S1x64_1 (x2)))
      = aggregate mat x2 x3 x4 x5 := rfl

/-- The reference's last stage is the aggregation of x·w with the bias added: its stages unfold to the chain
    above applied to its first stage, and the first stage is x·w. -/
theorem ref_result (x0 : (⟨S100000x256, .f32⟩ : BufTy).Contents (Elt Ideal)) (x1 : (⟨S256x64, .f32⟩ : BufTy).Contents (Elt Ideal))
    (x2 : (⟨S64, .f32⟩ : BufTy).Contents (Elt Ideal)) (x3 : (⟨S1250000, .f32⟩ : BufTy).Contents (Elt Ideal))
    (x4 x5 : (⟨S1250000, .i32⟩ : BufTy).Contents (Elt Ideal)) :
    Read.val_main_v16 (F := Ideal) x0 x1 x2 x3 x4 x5 = aggregate (dense x0 x1) x2 x3 x4 x5 :=
  (ref_chain (Read.val_main_v0 (F := Ideal) x0 x1) x2 x3 x4 x5).trans (congrArg (aggregate · x2 x3 x4 x5) (ref_dense x0 x1))

end Cert.GraphConv

end
-- ==== Proof.lean ====
/-
  A graph convolution: out = segment_sum(mat[src] · edge_weight, dst) + bias with mat = x·w, for 100000
  nodes, 1250000 edges, 256 input and 64 output features.

  The kernel's program computes mat in a region of ten grid points, each multiplying a block of 10000
  rows of x by w on the matrix unit in bf16 with an f32 accumulator that starts at zero, and stores mat in
  bf16; the host operations after the region gather the edges' source rows, widen them to f32, scale them
  by the edge weights, add them into the destination rows of a zero array and add the bias. The reference
  computes mat by one dot_general and then applies the same gather, scaling, scatter-add and bias.

  On the extended reals a change of float format is the identity, the matrix unit's product into a zero
  accumulator and the dot_general are both the plain sum over the 256 features, and the ten row blocks
  tile mat, so the region leaves exactly x·w (Proof/Dense, KernelBlock, KernelDense, RefDense). What
  follows is one chain of operations applied to one array on both sides (Proof/Tail, KernelTail, RefTail),
  so the results agree entry by entry. No step rearranges a sum against a product, so nothing is asked of
  the inputs beyond what the frames ask: the precondition is never opened.

  The three frames are the generated frame runs (the reference's is its generated run with the result
  dropped); the ideal pass rewrote nothing, so there is nothing to preserve.
-/
import proofs.«164963_j88124138979527_2_alg».proof.Defs
import proofs.«164963_j88124138979527_2_alg».proof.Proof.Gen.Kernel
import proofs.«164963_j88124138979527_2_alg».proof.Proof.Gen.Kernel.Frame
import proofs.«164963_j88124138979527_2_alg».proof.Proof.Gen.KernelIdeal
import proofs.«164963_j88124138979527_2_alg».proof.Proof.Gen.KernelIdeal.Frame
import proofs.«164963_j88124138979527_2_alg».proof.Proof.Gen.ReferenceIdeal
import proofs.«164963_j88124138979527_2_alg».proof.Proof.Gen.ReferenceIdeal.Run
import proofs.«164963_j88124138979527_2_alg».proof.Proof.Gen.ReferenceIdeal.Read
import proofs.«164963_j88124138979527_2_alg».proof.Proof.Gen.Pre_finite_inputs
import proofs.«164963_j88124138979527_2_alg».proof.Proof.KernelRun
import proofs.«164963_j88124138979527_2_alg».proof.Proof.RefTail
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference is host operations only: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the aggregation of x·w plus the bias in their result buffers: the kernel's by its
    run read through the region and the operations after it, the reference's by its run's composed term,
    of arguments that agree. -/
theorem algebraic : Cert.algebraic_KernelIdeal_ReferenceIdeal := by
  intro m ρ m' ρ' _ hagree
  refine ⟨_, Cert.GraphConv.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.GraphConv.ref_result, (hagree c).1, (hagree c).2.1, (hagree c).2.2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
